-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2060602x16x3 : Shape := ⟨3, ![2060602, 16, 3]⟩
abbrev S2060602x3 : Shape := ⟨2, ![2060602, 3]⟩
abbrev S2060602x16x1 : Shape := ⟨3, ![2060602, 16, 1]⟩
abbrev S_ : Shape := ⟨0, ![]⟩

class Facts : Prop where
  bcast_S_S2060602x16x3 : S_.BroadcastsInDim S2060602x16x3 (![] : Fin 0 → Fin S2060602x16x3.rank)
  reducesTo_S2060602x16x3_S_d0_1_2 : S2060602x16x3.ReducesTo [0, 1, 2] S_
  h_S_ : 0 < S_.numel
  bcast_S_S2060602x3 : S_.BroadcastsInDim S2060602x3 (![] : Fin 0 → Fin S2060602x3.rank)
  reducesTo_S2060602x3_S_d0_1 : S2060602x3.ReducesTo [0, 1] S_
  bcast_S_S2060602x16x1 : S_.BroadcastsInDim S2060602x16x1 (![] : Fin 0 → Fin S2060602x16x1.rank)
  reducesTo_S2060602x16x1_S_d0_1_2 : S2060602x16x1.ReducesTo [0, 1, 2] S_

variable [Facts]

def fn {F : FTy → Type} [FloatOps F] (main_arg0 : FVec F S2060602x16x3 .f32) (main_arg1 : FVec F S2060602x3 .f32) (main_arg2 : FVec F S2060602x16x1 .f32) : IVec S_ 1 :=
  let main_v0 : FVec F S2060602x16x3 .f32 := Host.absf main_arg0
  let main_cst : FVec F S_ .f32 := constant S_ .f32 0x7F800000#32
  let main_v1 : FVec F S2060602x16x3 .f32 := broadcastInDim S2060602x16x3 ![] bcast_S_S2060602x16x3 main_cst
  let main_v2 : IVec S2060602x16x3 1 := cmpf .olt main_v0 main_v1
  let main_c : IVec S_ 1 := constantI S_ 1 1#1
  let main_v3 : IVec S_ 1 := (fun x v => Host.reduce IntOp.andi x v reducesTo_S2060602x16x3_S_d0_1_2 h_S_) main_v2 main_c
  let main_v4 : FVec F S2060602x3 .f32 := Host.absf main_arg1
  let main_cst_0 : FVec F S_ .f32 := constant S_ .f32 0x7F800000#32
  let main_v5 : FVec F S2060602x3 .f32 := broadcastInDim S2060602x3 ![] bcast_S_S2060602x3 main_cst_0
  let main_v6 : IVec S2060602x3 1 := cmpf .olt main_v4 main_v5
  let main_c_1 : IVec S_ 1 := constantI S_ 1 1#1
  let main_v7 : IVec S_ 1 := (fun x v => Host.reduce IntOp.andi x v reducesTo_S2060602x3_S_d0_1 h_S_) main_v6 main_c_1
  let main_v8 : IVec S_ 1 := andi main_v3 main_v7
  let main_v9 : FVec F S2060602x16x1 .f32 := Host.absf main_arg2
  let main_cst_2 : FVec F S_ .f32 := constant S_ .f32 0x7F800000#32
  let main_v10 : FVec F S2060602x16x1 .f32 := broadcastInDim S2060602x16x1 ![] bcast_S_S2060602x16x1 main_cst_2
  let main_v11 : IVec S2060602x16x1 1 := cmpf .olt main_v9 main_v10
  let main_c_3 : IVec S_ 1 := constantI S_ 1 1#1
  let main_v12 : IVec S_ 1 := (fun x v => Host.reduce IntOp.andi x v reducesTo_S2060602x16x1_S_d0_1_2 h_S_) main_v11 main_c_3
  let main_v13 : IVec S_ 1 := andi main_v8 main_v12
  main_v13
-- ==== Kernel.lean ====
abbrev S2060602x16x3 : Shape := ⟨3, ![2060602, 16, 3]⟩
abbrev S2060602x3 : Shape := ⟨2, ![2060602, 3]⟩
abbrev S2060602x16x1 : Shape := ⟨3, ![2060602, 16, 1]⟩
abbrev S2060602x16 : Shape := ⟨2, ![2060602, 16]⟩
abbrev S2060602x1 : Shape := ⟨2, ![2060602, 1]⟩
abbrev S1024x16x3 : Shape := ⟨3, ![1024, 16, 3]⟩
abbrev S1024x3 : Shape := ⟨2, ![1024, 3]⟩
abbrev S1024x16 : Shape := ⟨2, ![1024, 16]⟩
abbrev S1024x1 : Shape := ⟨2, ![1024, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2060602x16x3, .f32⟩
  | .hbm, ⟨1, _⟩ => ⟨S2060602x3, .f32⟩
  | .hbm, ⟨2, _⟩ => ⟨S2060602x16x1, .f32⟩
  | .hbm, ⟨3, _⟩ => ⟨S2060602x16, .f32⟩
  | .hbm, ⟨4, _⟩ => ⟨S2060602x1, .f32⟩
  | .hbm, ⟨5, _⟩ => ⟨S2060602x1, .f32⟩
  | .local _ .vmem, ⟨0, _⟩ => ⟨S1024x16x3, .f32⟩
  | .local _ .vmem, ⟨1, _⟩ => ⟨S1024x16x3, .f32⟩
  | .local _ .vmem, ⟨2, _⟩ => ⟨S1024x3, .f32⟩
  | .local _ .vmem, ⟨3, _⟩ => ⟨S1024x3, .f32⟩
  | .local _ .vmem, ⟨4, _⟩ => ⟨S1024x16, .f32⟩
  | .local _ .vmem, ⟨5, _⟩ => ⟨S1024x16, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | _, _ => ⟨S2060602x16x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2013], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2060602x16x1_S2060602x16 : S2060602x16x1.ShapeCasts S2060602x16
  inb_S1024x16x3_S1024x16x3_0_0_0 : ∀ a, (![0, 0, 0] : Fin 3 → Nat) a + S1024x16x3.size a ≤ S1024x16x3.size a
  h_S1024x16x3 : 0 < S1024x16x3.numel
  reduces_S1024x16x3_S1024x16 : S1024x16x3.Reduces [2] S1024x16
  inb_S1024x3_S1024x3_0_0 : ∀ a, (![0, 0] : Fin 2 → Nat) a + S1024x3.size a ≤ S1024x3.size a
  h_S1024x3 : 0 < S1024x3.numel
  reduces_S1024x3_S1024 : S1024x3.Reduces [1] S1024
  shapeCasts_S1024_S1024x1 : S1024.ShapeCasts S1024x1
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  reduces_S1024x16_S1024 : S1024x16.Reduces [1] S1024
  inb_S1024x1_S1024x1_0_0 : ∀ a, (![0, 0] : Fin 2 → Nat) a + S1024x1.size a ≤ S1024x1.size a
  h_S1024x1 : 0 < S1024x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x16x3.size a < S2060602x16x3.size a
  hwx0_0 : ∀ i : grid0.Coords, EltTy.bits .f32 = 32 ∨ (Rect.unit (s := S2060602x16x3) (fun a => cc0_transform_0 i a * S1024x16x3.size a) (fun a => (Pipeline.Clip.of (cc0_transform_0 i a) (S1024x16x3.size a) (S2060602x16x3.size a)).extent (S1024x16x3.size a)) fun a => Pipeline.Clip.inb (Pipeline.Clip.ok_of (hstart0_0 i a))).WholeWords (EltTy.packing .f32)
  hwxs0_0 : ∀ i : grid0.Coords, EltTy.bits .f32 = 32 ∨ (Rect.unit (s := S1024x16x3) (fun _ => 0) (fun a => (Pipeline.Clip.of (cc0_transform_0 i a) (S1024x16x3.size a) (S2060602x16x3.size a)).extent (S1024x16x3.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x3.size a < S2060602x3.size a
  hwx0_1 : ∀ i : grid0.Coords, EltTy.bits .f32 = 32 ∨ (Rect.unit (s := S2060602x3) (fun a => cc0_transform_1 i a * S1024x3.size a) (fun a => (Pipeline.Clip.of (cc0_transform_1 i a) (S1024x3.size a) (S2060602x3.size a)).extent (S1024x3.size a)) fun a => Pipeline.Clip.inb (Pipeline.Clip.ok_of (hstart0_1 i a))).WholeWords (EltTy.packing .f32)
  hwxs0_1 : ∀ i : grid0.Coords, EltTy.bits .f32 = 32 ∨ (Rect.unit (s := S1024x3) (fun _ => 0) (fun a => (Pipeline.Clip.of (cc0_transform_1 i a) (S1024x3.size a) (S2060602x3.size a)).extent (S1024x3.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x16.size a < S2060602x16.size a
  hwx0_2 : ∀ i : grid0.Coords, EltTy.bits .f32 = 32 ∨ (Rect.unit (s := S2060602x16) (fun a => cc0_transform_2 i a * S1024x16.size a) (fun a => (Pipeline.Clip.of (cc0_transform_2 i a) (S1024x16.size a) (S2060602x16.size a)).extent (S1024x16.size a)) fun a => Pipeline.Clip.inb (Pipeline.Clip.ok_of (hstart0_2 i a))).WholeWords (EltTy.packing .f32)
  hwxs0_2 : ∀ i : grid0.Coords, EltTy.bits .f32 = 32 ∨ (Rect.unit (s := S1024x16) (fun _ => 0) (fun a => (Pipeline.Clip.of (cc0_transform_2 i a) (S1024x16.size a) (S2060602x16.size a)).extent (S1024x16.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x1.size a < S2060602x1.size a
  hwx0_3 : ∀ i : grid0.Coords, EltTy.bits .f32 = 32 ∨ (Rect.unit (s := S2060602x1) (fun a => cc0_transform_3 i a * S1024x1.size a) (fun a => (Pipeline.Clip.of (cc0_transform_3 i a) (S1024x1.size a) (S2060602x1.size a)).extent (S1024x1.size a)) fun a => Pipeline.Clip.inb (Pipeline.Clip.ok_of (hstart0_3 i a))).WholeWords (EltTy.packing .f32)
  hwxs0_3 : ∀ i : grid0.Coords, EltTy.bits .f32 = 32 ∨ (Rect.unit (s := S1024x1) (fun _ => 0) (fun a => (Pipeline.Clip.of (cc0_transform_3 i a) (S1024x1.size a) (S2060602x1.size a)).extent (S1024x1.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1024x1.size a < S2060602x1.size a
  hwx0_4 : ∀ i : grid0.Coords, EltTy.bits .f32 = 32 ∨ (Rect.unit (s := S2060602x1) (fun a => cc0_transform_4 i a * S1024x1.size a) (fun a => (Pipeline.Clip.of (cc0_transform_4 i a) (S1024x1.size a) (S2060602x1.size a)).extent (S1024x1.size a)) fun a => Pipeline.Clip.inb (Pipeline.Clip.ok_of (hstart0_4 i a))).WholeWords (EltTy.packing .f32)
  hwxs0_4 : ∀ i : grid0.Coords, EltTy.bits .f32 = 32 ∨ (Rect.unit (s := S1024x1) (fun _ => 0) (fun a => (Pipeline.Clip.of (cc0_transform_4 i a) (S1024x1.size a) (S2060602x1.size a)).extent (S1024x1.size a)) fun a => (Nat.zero_add _).trans_le (Pipeline.Clip.extent_le (Pipeline.Clip.ok_of (hstart0_4 i a)))).WholeWords (EltTy.packing .f32)

variable [Facts₀]

abbrev win0_0 : Pipeline.Window sig grid0 :=
  Pipeline.Window.ofSpecClip (Memref.whole main_arg0) S1024x16x3.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S1024x3.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1024x16.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1_0) S1024x1.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v1_1) S1024x1.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2060602x16x3 : Shape := ⟨3, ![2060602, 16, 3]⟩
abbrev S2060602x3 : Shape := ⟨2, ![2060602, 3]⟩
abbrev S2060602x16x1 : Shape := ⟨3, ![2060602, 16, 1]⟩
abbrev S_ : Shape := ⟨0, ![]⟩
abbrev S2060602x16 : Shape := ⟨2, ![2060602, 16]⟩
abbrev S2060602 : Shape := ⟨1, ![2060602]⟩
abbrev S2060602x1 : Shape := ⟨2, ![2060602, 1]⟩

abbrev nBuf : Space → Nat
  | .hbm => 32
  | .vmem => 0
  | .smem => 0
  | _ => 0

abbrev bufTy : (tb : Table) → Fin (tcTables nBuf tb) → BufTy
  | .hbm, ⟨0, _⟩ => ⟨S2060602x16x3, .f32⟩
  | .hbm, ⟨1, _⟩ => ⟨S2060602x3, .f32⟩
  | .hbm, ⟨2, _⟩ => ⟨S2060602x16x1, .f32⟩
  | .hbm, ⟨3, _⟩ => ⟨S_, .f32⟩
  | .hbm, ⟨4, _⟩ => ⟨S2060602x16x3, .f32⟩
  | .hbm, ⟨5, _⟩ => ⟨S2060602x16x3, .f32⟩
  | .hbm, ⟨6, _⟩ => ⟨S2060602x16x3, .f32⟩
  | .hbm, ⟨7, _⟩ => ⟨S_, .f32⟩
  | .hbm, ⟨8, _⟩ => ⟨S2060602x16, .f32⟩
  | .hbm, ⟨9, _⟩ => ⟨S2060602x16, .f32⟩
  | .hbm, ⟨10, _⟩ => ⟨S_, .f32⟩
  | .hbm, ⟨11, _⟩ => ⟨S2060602x16, .f32⟩
  | .hbm, ⟨12, _⟩ => ⟨S2060602x16, .f32⟩
  | .hbm, ⟨13, _⟩ => ⟨S2060602x16x1, .f32⟩
  | .hbm, ⟨14, _⟩ => ⟨S_, .f32⟩
  | .hbm, ⟨15, _⟩ => ⟨S2060602x3, .f32⟩
  | .hbm, ⟨16, _⟩ => ⟨S2060602x3, .f32⟩
  | .hbm, ⟨17, _⟩ => ⟨S2060602x3, .f32⟩
  | .hbm, ⟨18, _⟩ => ⟨S_, .f32⟩
  | .hbm, ⟨19, _⟩ => ⟨S2060602, .f32⟩
  | .hbm, ⟨20, _⟩ => ⟨S2060602, .f32⟩
  | .hbm, ⟨21, _⟩ => ⟨S_, .f32⟩
  | .hbm, ⟨22, _⟩ => ⟨S2060602, .f32⟩
  | .hbm, ⟨23, _⟩ => ⟨S2060602, .f32⟩
  | .hbm, ⟨24, _⟩ => ⟨S2060602x1, .f32⟩
  | .hbm, ⟨25, _⟩ => ⟨S2060602x16x1, .f32⟩
  | .hbm, ⟨26, _⟩ => ⟨S_, .f32⟩
  | .hbm, ⟨27, _⟩ => ⟨S2060602x1, .f32⟩
  | .hbm, ⟨28, _⟩ => ⟨S_, .f32⟩
  | .hbm, ⟨29, _⟩ => ⟨S2060602x1, .f32⟩
  | .hbm, ⟨30, _⟩ => ⟨S2060602x1, .f32⟩
  | .hbm, ⟨31, _⟩ => ⟨S2060602x1, .f32⟩
  | _, _ => ⟨S2060602x16x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S_S2060602x16x3 : S_.BroadcastsInDim S2060602x16x3 (![] : Fin 0 → Fin S2060602x16x3.rank)
  reducesTo_S2060602x16x3_S2060602x16_d2 : S2060602x16x3.ReducesTo [2] S2060602x16
  h_S_ : 0 < S_.numel
  bcast_S_S2060602x16 : S_.BroadcastsInDim S2060602x16 (![] : Fin 0 → Fin S2060602x16.rank)
  bcast_S2060602x16_S2060602x16x1_0_1 : S2060602x16.BroadcastsInDim S2060602x16x1 (![0, 1] : Fin 2 → Fin S2060602x16x1.rank)
  bcast_S_S2060602x3 : S_.BroadcastsInDim S2060602x3 (![] : Fin 0 → Fin S2060602x3.rank)
  reducesTo_S2060602x3_S2060602_d1 : S2060602x3.ReducesTo [1] S2060602
  bcast_S_S2060602 : S_.BroadcastsInDim S2060602 (![] : Fin 0 → Fin S2060602.rank)
  bcast_S2060602_S2060602x1_0 : S2060602.BroadcastsInDim S2060602x1 (![0] : Fin 1 → Fin S2060602x1.rank)
  reducesTo_S2060602x16x1_S2060602x1_d1 : S2060602x16x1.ReducesTo [1] S2060602x1

variable [Facts₀]

class Facts : Prop extends Facts₀ where

variable [Facts]
-- ==== Proof.WordBody.lean ====
/-
  The kernel body as one step on five whole staging buffers, for any float instance.

  The body reads its three input buffers whole (the ring coordinates, [1024, 16, 3]; the central coordinates,
  [1024, 3]; the ring mask, [1024, 16]), and overwrites its two output buffers whole ([1024, 1] each): the first
  with the central nodes' signed distance, a function of the central coordinates alone, the second with the
  umbrella Laplacian, a function of all three. It changes nothing else. What the outputs held before is read
  once and discarded.
-/
import proofs.«180831_j48687749267811_2_alg».proof.Proof.Gen.Kernel.Launch
import proofs.«180831_j48687749267811_2_alg».proof.Proof.Gen.Kernel.Skeleton
import proofs.«180831_j48687749267811_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a [1024, 16, 3] buffer, of a [1024, 3] one, of a [1024, 16] one and of a [1024, 1] one, as the
    rectangles the body's loads and stores go through. -/
abbrev rRing : Rect S1024x16x3 := Rect.unit (s := S1024x16x3) ![0, 0, 0] S1024x16x3.size inb_S1024x16x3_S1024x16x3_0_0_0
abbrev rCent : Rect S1024x3 := Rect.unit (s := S1024x3) ![0, 0] S1024x3.size inb_S1024x3_S1024x3_0_0
abbrev rMask : Rect S1024x16 := Rect.unit (s := S1024x16) ![0, 0] S1024x16.size inb_S1024x16_S1024x16_0_0
abbrev rOut : Rect S1024x1 := Rect.unit (s := S1024x1) ![0, 0] S1024x1.size inb_S1024x1_S1024x1_0_0

/-- What the first output buffer holds after the body: its one whole store, of the distance payload of the
    central coordinates read whole. -/
def outDist (x1 : Vec F S1024x3 .f32) : Vec F S1024x1 .f32 :=
  View.canon [⟨rOut, k0_pay1 (View.ld x1 rCent)⟩]

/-- What the second output buffer holds after the body: its one whole store, of the Laplacian payload of the three
    inputs read whole. -/
def outLap (x0 : Vec F S1024x16x3 .f32) (x1 : Vec F S1024x3 .f32) (x2 : Vec F S1024x16 .f32) : Vec F S1024x1 .f32 :=
  View.canon [⟨rOut, k0_pay2 (View.ld x0 rRing) (View.ld x1 rCent) (View.ld x2 rMask)⟩]

/-- A store through the whole [1024, 1] rectangle covers the buffer. -/
theorem coverOut (p0 : Vec F S1024x1 .f32) (y : S1024x1.Idx) :
    ∃ pc ∈ ([⟨rOut, p0⟩] : List (View.Piece (Elt F) S1024x1 .f32)), y ∈ pc.1.set :=
  View.cover_of_tiled [⟨rOut, p0⟩] S1024x1.size (by rfl) y

theorem hz2 : (![0, 0] : Fin 2 → Nat) = fun _ => 0 := funext fun a => by fin_cases a <;> rfl
theorem hz3 : (![0, 0, 0] : Fin 3 → Nat) = fun _ => 0 := funext fun a => by fin_cases a <;> rfl

/-- A whole store's canon is its payload, and a whole load reads the contents: the two outputs are the payloads of
    the inputs themselves. -/
theorem outDist_eq (x1 : Vec F S1024x3 .f32) : outDist x1 = k0_pay1 x1 := by
  unfold outDist
  rw [View.canon_unit_zero hz2]
  simp only [View.ld_unit_zero (S := S1024x3) hz2]

theorem outLap_eq (x0 : Vec F S1024x16x3 .f32) (x1 : Vec F S1024x3 .f32) (x2 : Vec F S1024x16 .f32) :
    outLap x0 x1 x2 = k0_pay2 x0 x1 x2 := by
  unfold outLap
  rw [View.canon_unit_zero hz2]
  simp only [View.ld_unit_zero (S := S1024x3) hz2, View.ld_unit_zero (S := S1024x16) hz2, View.ld_unit_zero (S := S1024x16x3) hz3]

set_option maxHeartbeats 2000000 in
/-- The body on whole staging memrefs — the inputs' at read contents `x0`, `x1`, `x2`, the outputs' at anything —
    runs to the continuation holding the inputs' as they were and the outputs' at the two payloads of the inputs. -/
theorem sound_kernel (c : Dev nD) (E : Set ℕ) (i : grid0.Coords)
    (arg1 : Memref sig .tc .vmem S1024x16x3 .f32) (harg1 : arg1.IsWhole) (arg2 : Memref sig .tc .vmem S1024x3 .f32) (harg2 : arg2.IsWhole)
    (arg3 : Memref sig .tc .vmem S1024x16 .f32) (harg3 : arg3.IsWhole) (arg4 : Memref sig .tc .vmem S1024x1 .f32) (harg4 : arg4.IsWhole)
    (arg5 : Memref sig .tc .vmem S1024x1 .f32) (harg5 : arg5.IsWhole)
    (x0 : Vec F S1024x16x3 .f32) (x1 : Vec F S1024x3 .f32) (x2 : Vec F S1024x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outDist x1) ∗ owns (c : Thread nD τ) arg5 fullShare (outLap x0 x1 x2)) -∗ K ⟨⟩))
      ⊢ wp frame (wpE (defs₀ (F := F)) Variants.none c none) E
          (cc0__laplacian_kernel i arg1 harg1 arg2 harg2 arg3 harg3 arg4 harg4 arg5 harg5) K := by
  simp only [cc0__laplacian_kernel_eq_skeleton]; unfold cc0__laplacian_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverOut _)
  · iexists _; isplitr
    swap; · iexact H4
    ipureintro
    exact View.read_writes_eq_canon _ _ _ (coverOut _)

end Cert.Kernel.Body

end
-- ==== Proof.WordFrame.lean ====
/-
  The frame of the word-level program: it runs to the end, faults nowhere and leaves its three argument arrays as
  they were, for any float instance.

  The grid has 2013 points; each stages 1024 rows of the three inputs and writes 1024 rows of the two results back.
  The arrays have 2060602 = 2012 * 1024 + 314 rows, so the last point's blocks overhang the arrays: its fetches
  land 314 rows and leave the buffers' other 710 rows at words nothing names, and its write-backs write 314 rows.
  The frame asks nothing of the results, so the proof data leave both result windows unnamed: the body is handed
  each result buffer at any contents and hands it back at any contents. Of an input buffer the body must leave,
  on the rows inside the array, the block it was fetched — it only reads them.
-/
import proofs.«180831_j48687749267811_2_alg».proof.Proof.WordBody
import proofs.«180831_j48687749267811_2_alg».proof.Proof.Gen.Kernel.Frame

set_option maxRecDepth 16384

noncomputable section

namespace Cert.Kernel.FrameRun

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- An input buffer after the body at point `t`, as the proof data name it: the window's block on the rows inside
    the array, the zero word on the others (which no obligation reads). -/
def ringBuf (c : Dev nD) (t : Fin cfg0.N) : Vec F S1024x16x3 .f32 :=
  win0_0.fill (grid0.coords t) (fun _ => Scalar.ofBits .f32 0#32) (iblk m c 0 t)
def centBuf (c : Dev nD) (t : Fin cfg0.N) : Vec F S1024x3 .f32 :=
  win0_1.fill (grid0.coords t) (fun _ => Scalar.ofBits .f32 0#32) (iblk m c 1 t)
def maskBuf (c : Dev nD) (t : Fin cfg0.N) : Vec F S1024x16 .f32 :=
  win0_2.fill (grid0.coords t) (fun _ => Scalar.ofBits .f32 0#32) (iblk m c 2 t)

/-- The proof data of the one pipeline on core `c`: the arrays as the region finds them; after the body each input's
    buffer at its block; the two result windows unnamed; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => ringBuf m c t
    | ⟨1, _⟩ => centBuf m c t
    | ⟨2, _⟩ => maskBuf m c t
    | ⟨3, _⟩ => Dat.unnamed (cfg := cfg0) 3 t
    | ⟨4, _⟩ => Dat.unnamed (cfg := cfg0) 4 t
  Φ _ := Pipeline.ΦA spec0 c
  q _ := fullShare
  owed _ := 0

/-- The result windows, which the frame forgets. -/
def forgets : Fin 5 → Bool := fun w => w.val == 3 || w.val == 4

theorem A_eq (c : Dev nD) (w : Fin cfg0.W) : (dats m 0 c).A w = V m c (Pipeline.arrRef spec0 w) := by
  dsimp only [dats]

theorem after_0 (c : Dev nD) (t : Fin cfg0.N) : (dats m 0 c).after 0 t = ringBuf m c t := by dsimp only [dats]
theorem after_1 (c : Dev nD) (t : Fin cfg0.N) : (dats m 0 c).after 1 t = centBuf m c t := by dsimp only [dats]
theorem after_2 (c : Dev nD) (t : Fin cfg0.N) : (dats m 0 c).after 2 t = maskBuf m c t := by dsimp only [dats]

/-- What a fetch reads is the window's block of the array as the region finds it. -/
theorem blockOf_0 (c : Dev nD) (t : Fin cfg0.N) : (dats m 0 c).blockOf 0 t = iblk m c 0 t := by
  unfold Dat.blockOf iblk; rw [A_eq]
theorem blockOf_1 (c : Dev nD) (t : Fin cfg0.N) : (dats m 0 c).blockOf 1 t = iblk m c 1 t := by
  unfold Dat.blockOf iblk; rw [A_eq]
theorem blockOf_2 (c : Dev nD) (t : Fin cfg0.N) : (dats m 0 c).blockOf 2 t = iblk m c 2 t := by
  unfold Dat.blockOf iblk; rw [A_eq]

/-- Every input is fetched at every point: its buffer holds the block on the rows inside the array, `d` elsewhere. -/
theorem before_0 (c : Dev nD) (t : Fin cfg0.N) (d) :
    (dats m 0 c).before 0 t d = win0_0.fill (grid0.coords t) d (iblk m c 0 t) := by
  rw [(dats m 0 c).before_fetched 0 t (fetch0_0 t) d]; unfold Dat.fetched; rw [blockOf_0]
theorem before_1 (c : Dev nD) (t : Fin cfg0.N) (d) :
    (dats m 0 c).before 1 t d = win0_1.fill (grid0.coords t) d (iblk m c 1 t) := by
  rw [(dats m 0 c).before_fetched 1 t (fetch0_1 t) d]; unfold Dat.fetched; rw [blockOf_1]
theorem before_2 (c : Dev nD) (t : Fin cfg0.N) (d) :
    (dats m 0 c).before 2 t d = win0_2.fill (grid0.coords t) d (iblk m c 2 t) := by
  rw [(dats m 0 c).before_fetched 2 t (fetch0_2 t) d]; unfold Dat.fetched; rw [blockOf_2]

/-- On the rows inside the array, what the proof data say an input buffer holds after the body is the block. -/
theorem cut_after_0 (c : Dev nD) (t : Fin cfg0.N) :
    win0_0.cut (grid0.coords t) ((dats m 0 c).after 0 t) = iblk m c 0 t := by
  rw [after_0]; exact win0_0.cut_fill _ _ _
theorem cut_after_1 (c : Dev nD) (t : Fin cfg0.N) :
    win0_1.cut (grid0.coords t) ((dats m 0 c).after 1 t) = iblk m c 1 t := by
  rw [after_1]; exact win0_1.cut_fill _ _ _
theorem cut_after_2 (c : Dev nD) (t : Fin cfg0.N) :
    win0_2.cut (grid0.coords t) ((dats m 0 c).after 2 t) = iblk m c 2 t := by
  rw [after_2]; exact win0_2.cut_fill _ _ _

/-! ## The body obligation -/

/-- What the body is called with at point `t`: the inputs' buffers just fetched, the results' at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X)
    ∗ (∃ X, owns (c : Thread nD τ) (st0_4 t) fullShare X))

/-- and what it returns: each input's buffer at its block on the rows inside the array, the results' at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ X, owns (c : Thread nD τ) (st0_3 t) fullShare X)
    ∗ (∃ X, owns (c : Thread nD τ) (st0_4 t) fullShare X))

/-- The body at any point: it only reads the inputs' buffers, so each is handed back as fetched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    cut_after_0, cut_after_1, cut_after_2]
  iintro ⟨HΦ, Ho, ⟨%d0, H0⟩, ⟨%d1, H1⟩, ⟨%d2, H2⟩, H3, H4⟩
  rw [before_0 m c t d0, before_1 m c t d1, before_2 m c t d2]
  iapply (sound_kernel c Set.univ (grid0.coords t) _ _ _ _ _ _ _ _ _ _
    (win0_0.fill (grid0.coords t) d0 (iblk m c 0 t)) (win0_1.fill (grid0.coords t) d1 (iblk m c 1 t))
    (win0_2.fill (grid0.coords t) d2 (iblk m c 2 t)) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexists _; iexact H3
  iexists _; iexact H4

/-- The library's body obligation at every point, the result windows forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution terminates, nothing faulting, every input window's array and every other unscoped
    buffer ending as the region found it. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- The frame claim's post: the two staged arguments by the input windows' arrays, the mask argument (which no
    window stages: the region reads its reshape) by the post's second clause. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget forgets).ArrAt_in 0 rfl _) _) ((h c).1 0)).trans ((A_eq m c 0).trans (V_main_arg0 m c)),
      (Eq.mp (congrFun (((dats m 0 c).toRForget forgets).ArrAt_in 1 rfl _) _) ((h c).1 1)).trans ((A_eq m c 1).trans (V_main_arg1 m c)),
      ((h c).2 main_arg2 (Pipeline.mem_restRefs_of main_arg2 (by decide) (by decide))).trans (V_main_arg2 m c)⟩) (run_main m ρ)

end Cert.Kernel.FrameRun

end
-- ==== Proof.IdealBody.lean ====
/-
  The kernel body as one step on five whole staging buffers, for any float instance.

  The body reads its three input buffers whole (the ring coordinates, [1024, 16, 3]; the central coordinates,
  [1024, 3]; the ring mask, [1024, 16]), and overwrites its two output buffers whole ([1024, 1] each): the first
  with the central nodes' signed distance, a function of the central coordinates alone, the second with the
  umbrella Laplacian, a function of all three. It changes nothing else. What the outputs held before is read
  once and discarded.
-/
import proofs.«180831_j48687749267811_2_alg».proof.Proof.Gen.KernelIdeal.Launch
import proofs.«180831_j48687749267811_2_alg».proof.Proof.Gen.KernelIdeal.Skeleton
import proofs.«180831_j48687749267811_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a [1024, 16, 3] buffer, of a [1024, 3] one, of a [1024, 16] one and of a [1024, 1] one, as the
    rectangles the body's loads and stores go through. -/
abbrev rRing : Rect S1024x16x3 := Rect.unit (s := S1024x16x3) ![0, 0, 0] S1024x16x3.size inb_S1024x16x3_S1024x16x3_0_0_0
abbrev rCent : Rect S1024x3 := Rect.unit (s := S1024x3) ![0, 0] S1024x3.size inb_S1024x3_S1024x3_0_0
abbrev rMask : Rect S1024x16 := Rect.unit (s := S1024x16) ![0, 0] S1024x16.size inb_S1024x16_S1024x16_0_0
abbrev rOut : Rect S1024x1 := Rect.unit (s := S1024x1) ![0, 0] S1024x1.size inb_S1024x1_S1024x1_0_0

/-- What the first output buffer holds after the body: its one whole store, of the distance payload of the
    central coordinates read whole. -/
def outDist (x1 : Vec F S1024x3 .f32) : Vec F S1024x1 .f32 :=
  View.canon [⟨rOut, k0_pay1 (View.ld x1 rCent)⟩]

/-- What the second output buffer holds after the body: its one whole store, of the Laplacian payload of the three
    inputs read whole. -/
def outLap (x0 : Vec F S1024x16x3 .f32) (x1 : Vec F S1024x3 .f32) (x2 : Vec F S1024x16 .f32) : Vec F S1024x1 .f32 :=
  View.canon [⟨rOut, k0_pay2 (View.ld x0 rRing) (View.ld x1 rCent) (View.ld x2 rMask)⟩]

/-- A store through the whole [1024, 1] rectangle covers the buffer. -/
theorem coverOut (p0 : Vec F S1024x1 .f32) (y : S1024x1.Idx) :
    ∃ pc ∈ ([⟨rOut, p0⟩] : List (View.Piece (Elt F) S1024x1 .f32)), y ∈ pc.1.set :=
  View.cover_of_tiled [⟨rOut, p0⟩] S1024x1.size (by rfl) y

theorem hz2 : (![0, 0] : Fin 2 → Nat) = fun _ => 0 := funext fun a => by fin_cases a <;> rfl
theorem hz3 : (![0, 0, 0] : Fin 3 → Nat) = fun _ => 0 := funext fun a => by fin_cases a <;> rfl

/-- A whole store's canon is its payload, and a whole load reads the contents: the two outputs are the payloads of
    the inputs themselves. -/
theorem outDist_eq (x1 : Vec F S1024x3 .f32) : outDist x1 = k0_pay1 x1 := by
  unfold outDist
  rw [View.canon_unit_zero hz2]
  simp only [View.ld_unit_zero (S := S1024x3) hz2]

theorem outLap_eq (x0 : Vec F S1024x16x3 .f32) (x1 : Vec F S1024x3 .f32) (x2 : Vec F S1024x16 .f32) :
    outLap x0 x1 x2 = k0_pay2 x0 x1 x2 := by
  unfold outLap
  rw [View.canon_unit_zero hz2]
  simp only [View.ld_unit_zero (S := S1024x3) hz2, View.ld_unit_zero (S := S1024x16) hz2, View.ld_unit_zero (S := S1024x16x3) hz3]

set_option maxHeartbeats 2000000 in
/-- The body on whole staging memrefs — the inputs' at read contents `x0`, `x1`, `x2`, the outputs' at anything —
    runs to the continuation holding the inputs' as they were and the outputs' at the two payloads of the inputs. -/
theorem sound_kernel (c : Dev nD) (E : Set ℕ) (i : grid0.Coords)
    (arg1 : Memref sig .tc .vmem S1024x16x3 .f32) (harg1 : arg1.IsWhole) (arg2 : Memref sig .tc .vmem S1024x3 .f32) (harg2 : arg2.IsWhole)
    (arg3 : Memref sig .tc .vmem S1024x16 .f32) (harg3 : arg3.IsWhole) (arg4 : Memref sig .tc .vmem S1024x1 .f32) (harg4 : arg4.IsWhole)
    (arg5 : Memref sig .tc .vmem S1024x1 .f32) (harg5 : arg5.IsWhole)
    (x0 : Vec F S1024x16x3 .f32) (x1 : Vec F S1024x3 .f32) (x2 : Vec F S1024x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outDist x1) ∗ owns (c : Thread nD τ) arg5 fullShare (outLap x0 x1 x2)) -∗ K ⟨⟩))
      ⊢ wp frame (wpE (defs₀ (F := F)) Variants.none c none) E
          (cc0__laplacian_kernel i arg1 harg1 arg2 harg2 arg3 harg3 arg4 harg4 arg5 harg5) K := by
  simp only [cc0__laplacian_kernel_eq_skeleton]; unfold cc0__laplacian_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverOut _)
  · iexists _; isplitr
    swap; · iexact H4
    ipureintro
    exact View.read_writes_eq_canon _ _ _ (coverOut _)

end Cert.KernelIdeal.Body

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.IdealRows.lean ====
/-
  The body's two results, one row at a time, on the extended reals.

  Row p of the first result is the signed distance of the central node p to the sphere of centre (1/2, 1/2, 1/2) and
  radius 1/4: the square root of the sum over the three coordinates of (x - 1/2)^2, less 1/4. Row p of the second is
  the umbrella Laplacian of that distance over the node's ring of sixteen slots: the sum over the slots of the
  slot's distance times its mask, less the sum of the masks times the centre's distance. Each row of either result
  reads row p of the inputs and no other: the reductions run along the coordinate axis and the slot axis, never
  along the rows. That is what lets the last grid point, whose buffers hold 314 rows of the arrays and 710 rows of
  unnamed words, still write back 314 determined rows.
-/
import proofs.«180831_j48687749267811_2_alg».proof.Proof.Gen.KernelIdeal.Skeleton
import proofs.«180831_j48687749267811_2_alg».proof.Proof.LibKeepdimsColumn
import Idealize.ShloMosaic.PureOps.Ideal.Laws
import Idealize.ShloMosaic.Lib.ValueIdx
import Idealize.ShloMosaic.Lib.Pipeline.Value

set_option maxRecDepth 16384

noncomputable section

namespace Cert.KernelIdeal.Rows

open Idealize.ShloMosaic Idealize.ShloMosaic.ValueIdx Cert.KernelIdeal Cert.KernelIdeal.Gen Cert.Lib.KeepdimsColumn

/-- The sphere's centre coordinate and its radius, as the floats the programs spell them with. -/
def half : EReal := Ideal.ofBits .f32 0x3F000000#32
def quarter : EReal := Ideal.ofBits .f32 0x3E800000#32

/-- The signed distance of a point to the sphere. -/
def sdf (v : Fin 3 → EReal) : EReal := Ideal.sqrt (∑ k : Fin 3, (v k - half) * (v k - half)) - quarter

/-- The umbrella Laplacian of the distance at one node: over its ring's sixteen slots, masked. -/
def lapRow (ring : Fin 16 → Fin 3 → EReal) (cen : Fin 3 → EReal) (mask : Fin 16 → EReal) : EReal :=
  (∑ j : Fin 16, sdf (ring j) * mask j) - (∑ j : Fin 16, mask j) * sdf cen

/-- The first result over the whole arrays: entry (r, 0) is the distance of central node r. -/
def Gdist (a1 : (⟨2, ![2060602, 3]⟩ : Shape).Idx → EReal) : (⟨2, ![2060602, 1]⟩ : Shape).Idx → EReal :=
  fun i => sdf (fun k => a1 (ix2 (i 0) k))

/-- The second result over the whole arrays: entry (r, 0) is the Laplacian at node r, from row r of the ring
    coordinates, of the central coordinates and of the mask (whose trailing axis has the one entry 0). -/
def Glap (a0 : (⟨3, ![2060602, 16, 3]⟩ : Shape).Idx → EReal) (a1 : (⟨2, ![2060602, 3]⟩ : Shape).Idx → EReal)
    (a2 : (⟨3, ![2060602, 16, 1]⟩ : Shape).Idx → EReal) : (⟨2, ![2060602, 1]⟩ : Shape).Idx → EReal :=
  fun i => lapRow (fun j k => a0 (ix3 (i 0) j k)) (fun k => a1 (ix2 (i 0) k)) (fun j => a2 (ix3 (n2 := 1) (i 0) j 0))

/-- A sum along the three coordinates of a [1024, 3] block, at row p. -/
theorem sum_coords (v : FVec Ideal S1024x3 .f32) (h : S1024x3.Reduces [1] S1024) (hφ : FKind.Formats .f32)
    (hacc : (0x00000000#32 : BitVec 32) = FKind.add.neutral .f32 hφ) (p : Fin 1024) :
    multiReduction .add [1] S1024 v 0x00000000#32 h hφ hacc (ix1 p) = ∑ k : Fin 3, v (ix2 p k) := by
  refine (Ideal.multiReduction_add_single v _ h hφ hacc (ix1 p)).trans ?_
  refine Finset.sum_congr rfl fun k _ => congrArg v ?_
  funext d; match d with | ⟨0, _⟩ => rfl | ⟨1, _⟩ => rfl

/-- A sum along the three coordinates of a [1024, 16, 3] block, at row p and slot j. -/
theorem sum_ring_coords (v : FVec Ideal S1024x16x3 .f32) (h : S1024x16x3.Reduces [2] S1024x16) (hφ : FKind.Formats .f32)
    (hacc : (0x00000000#32 : BitVec 32) = FKind.add.neutral .f32 hφ) (p : Fin 1024) (j : Fin 16) :
    multiReduction .add [2] S1024x16 v 0x00000000#32 h hφ hacc (ix2 p j) = ∑ k : Fin 3, v (ix3 p j k) := by
  refine (Ideal.multiReduction_add_single v _ h hφ hacc (ix2 p j)).trans ?_
  refine Finset.sum_congr rfl fun k _ => congrArg v ?_
  funext d; match d with | ⟨0, _⟩ => rfl | ⟨1, _⟩ => rfl | ⟨2, _⟩ => rfl

/-- A sum along the sixteen slots of a [1024, 16] block, at row p. -/
theorem sum_slots (v : FVec Ideal S1024x16 .f32) (h : S1024x16.Reduces [1] S1024) (hφ : FKind.Formats .f32)
    (hacc : (0x00000000#32 : BitVec 32) = FKind.add.neutral .f32 hφ) (p : Fin 1024) :
    multiReduction .add [1] S1024 v 0x00000000#32 h hφ hacc (ix1 p) = ∑ j : Fin 16, v (ix2 p j) := by
  refine (Ideal.multiReduction_add_single v _ h hφ hacc (ix1 p)).trans ?_
  refine Finset.sum_congr rfl fun k _ => congrArg v ?_
  funext d; match d with | ⟨0, _⟩ => rfl | ⟨1, _⟩ => rfl

/-- Row p of the first result: the centre's distance. -/
theorem pay1_at (x1 : Vec Ideal S1024x3 .f32) (p : Fin 1024) :
    k0_pay1 (F := Ideal) x1 (ix2 p 0) = sdf (fun k => x1 (ix2 p k)) := by
  unfold k0_pay1 sdf
  refine congrArg (fun z => Ideal.sqrt z - quarter) ?_
  refine (column_cast_at (a := 1024) _ _ p).trans ?_
  exact sum_coords _ _ _ _ p

/-- Row p of the second result: the Laplacian of the node's row of the three inputs. -/
theorem pay2_at (x0 : Vec Ideal S1024x16x3 .f32) (x1 : Vec Ideal S1024x3 .f32) (x2 : Vec Ideal S1024x16 .f32) (p : Fin 1024) :
    k0_pay2 (F := Ideal) x0 x1 x2 (ix2 p 0)
      = lapRow (fun j k => x0 (ix3 p j k)) (fun k => x1 (ix2 p k)) (fun j => x2 (ix2 p j)) := by
  unfold k0_pay2 lapRow
  refine congrArg₂ (fun a b => a - b) ?_ ?_
  · refine (column_cast_at (a := 1024) _ _ p).trans ?_
    refine (sum_slots _ _ _ _ p).trans ?_
    refine Finset.sum_congr rfl fun j _ => ?_
    refine congrArg₂ (fun a b => a * b) ?_ ?_
    · unfold sdf
      refine congrArg (fun z => Ideal.sqrt z - quarter) ?_
      exact sum_ring_coords _ _ _ _ p j
    · exact congrFun (shapeCast_self x2 _) (ix2 p j)
  · refine congrArg₂ (fun a b => a * b) ?_ (pay1_at x1 p)
    refine (column_cast_at (a := 1024) _ _ p).trans ?_
    refine (sum_slots _ _ _ _ p).trans ?_
    exact Finset.sum_congr rfl fun j _ => congrFun (shapeCast_self x2 _) (ix2 p j)

end Cert.KernelIdeal.Rows

end
-- ==== Proof.IdealRun.lean ====
/-
  The idealized kernel's run with both results named, on the extended reals.

  The grid has 2013 points; point t stages rows 1024 t onwards of the three inputs, and writes rows 1024 t onwards of
  the two results back: 1024 rows at every point but the last, 314 at the last, whose blocks overhang the
  2060602-row arrays. After a fetch an input buffer holds its block on the rows inside the array and unnamed words
  on the others; the body's results on the rows inside the array read only those rows of the inputs (a row of a
  result depends on the same row of each input and on nothing else), so what is written back is determined
  whatever the unnamed words are. The proof data name each buffer by filling the unnamed rows with the zero word.
-/
import proofs.«180831_j48687749267811_2_alg».proof.Proof.IdealBody
import proofs.«180831_j48687749267811_2_alg».proof.Proof.IdealRows
import proofs.«180831_j48687749267811_2_alg».proof.Proof.Gen.KernelIdeal.Frame

set_option maxRecDepth 16384

noncomputable section

namespace Cert.KernelIdeal.Run

open Cert.KernelIdeal Cert.KernelIdeal.Gen Cert.KernelIdeal.Body Cert.KernelIdeal.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## How the five windows cut their blocks: alike -/

/-- At every point the five windows move the same number of rows, and all of every other axis. -/
theorem cuts : ∀ t : Fin cfg0.N,
    win0_0.xsize (grid0.coords t) (0 : Fin 3) = win0_3.xsize (grid0.coords t) (0 : Fin 2)
    ∧ win0_1.xsize (grid0.coords t) (0 : Fin 2) = win0_3.xsize (grid0.coords t) (0 : Fin 2)
    ∧ win0_2.xsize (grid0.coords t) (0 : Fin 2) = win0_3.xsize (grid0.coords t) (0 : Fin 2)
    ∧ win0_4.xsize (grid0.coords t) (0 : Fin 2) = win0_3.xsize (grid0.coords t) (0 : Fin 2)
    ∧ win0_0.xsize (grid0.coords t) (1 : Fin 3) = 16 ∧ win0_0.xsize (grid0.coords t) (2 : Fin 3) = 3
    ∧ win0_1.xsize (grid0.coords t) (1 : Fin 2) = 3 ∧ win0_2.xsize (grid0.coords t) (1 : Fin 2) = 16 :=
  (by decide +kernel : ∀ t : Fin grid0.N, _)

/-- Two fillings of one block agree wherever the transfer moves. -/
theorem fill_agree {α : Type} {G : Pipeline.Grid} (w : Pipeline.Window sig G) (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- An index of a [1024, 1] buffer inside the rows a write-back moves, by its row. -/
theorem out_index (t : Fin cfg0.N) (y : (win0_3.xblock (grid0.coords t)).Idx) :
    win0_3.xinj (grid0.coords t) y = ix2 (n0 := 1024) (n1 := 1) ⟨(y 0).val, Nat.lt_of_lt_of_le (y 0).isLt (win0_3.xsize_le _ 0)⟩ 0 := by
  funext a
  match a with
  | ⟨0, _⟩ => rfl
  | ⟨1, _⟩ =>
    apply Fin.ext
    have h1 : (y 1).val < 1 := Nat.lt_of_lt_of_le (y 1).isLt (win0_3.xsize_le (grid0.coords t) 1)
    show (y 1).val = 0
    omega

/-- The distance result on the rows written back reads only the rows fetched of the central coordinates. -/
theorem dist_local (t : Fin cfg0.N) (X1 Y1 : Vec Ideal S1024x3 .f32)
    (h1 : ∀ j, win0_1.moved (grid0.coords t) j = true → X1 j = Y1 j) :
    win0_3.cut (grid0.coords t) (k0_pay1 (F := Ideal) X1) = win0_3.cut (grid0.coords t) (k0_pay1 (F := Ideal) Y1) := by
  obtain ⟨e0, e1, e2, e4, e01, e02, e11, e21⟩ := cuts t
  funext y
  show k0_pay1 (F := Ideal) X1 (win0_3.xinj (grid0.coords t) y) = k0_pay1 (F := Ideal) Y1 (win0_3.xinj (grid0.coords t) y)
  rw [out_index t y, pay1_at, pay1_at]
  refine congrArg sdf (funext fun k => h1 _ ((win0_1.moved_iff _ _).mpr fun a => ?_))
  match a with
  | ⟨0, _⟩ => show (y 0).val < win0_1.xsize (grid0.coords t) (0 : Fin 2); rw [e1]; exact (y 0).isLt
  | ⟨1, _⟩ => show k.val < win0_1.xsize (grid0.coords t) (1 : Fin 2); rw [e11]; exact k.isLt

/-- The Laplacian result on the rows written back reads only the rows fetched of the three inputs. -/
theorem lap_local (t : Fin cfg0.N) (X0 Y0 : Vec Ideal S1024x16x3 .f32) (X1 Y1 : Vec Ideal S1024x3 .f32) (X2 Y2 : Vec Ideal S1024x16 .f32)
    (h0 : ∀ j, win0_0.moved (grid0.coords t) j = true → X0 j = Y0 j)
    (h1 : ∀ j, win0_1.moved (grid0.coords t) j = true → X1 j = Y1 j)
    (h2 : ∀ j, win0_2.moved (grid0.coords t) j = true → X2 j = Y2 j) :
    win0_4.cut (grid0.coords t) (k0_pay2 (F := Ideal) X0 X1 X2) = win0_4.cut (grid0.coords t) (k0_pay2 (F := Ideal) Y0 Y1 Y2) := by
  obtain ⟨e0, e1, e2, e4, e01, e02, e11, e21⟩ := cuts t
  funext y
  have hy : (y 0).val < win0_3.xsize (grid0.coords t) (0 : Fin 2) := e4 ▸ (y 0).isLt
  show k0_pay2 (F := Ideal) X0 X1 X2 (win0_4.xinj (grid0.coords t) y) = k0_pay2 (F := Ideal) Y0 Y1 Y2 (win0_4.xinj (grid0.coords t) y)
  have hi : win0_4.xinj (grid0.coords t) y = ix2 (n0 := 1024) (n1 := 1) ⟨(y 0).val, Nat.lt_of_lt_of_le (y 0).isLt (win0_4.xsize_le _ 0)⟩ 0 := by
    funext a
    match a with
    | ⟨0, _⟩ => rfl
    | ⟨1, _⟩ =>
      apply Fin.ext
      have h1 : (y 1).val < 1 := Nat.lt_of_lt_of_le (y 1).isLt (win0_4.xsize_le (grid0.coords t) 1)
      show (y 1).val = 0
      omega
  rw [hi, pay2_at, pay2_at]
  refine congr (congr (congrArg lapRow ?_) ?_) ?_
  · funext j k
    refine h0 _ ((win0_0.moved_iff _ _).mpr fun a => ?_)
    match a with
    | ⟨0, _⟩ => show (y 0).val < win0_0.xsize (grid0.coords t) (0 : Fin 3); rw [e0]; exact hy
    | ⟨1, _⟩ => show j.val < win0_0.xsize (grid0.coords t) (1 : Fin 3); rw [e01]; exact j.isLt
    | ⟨2, _⟩ => show k.val < win0_0.xsize (grid0.coords t) (2 : Fin 3); rw [e02]; exact k.isLt
  · funext k
    refine h1 _ ((win0_1.moved_iff _ _).mpr fun a => ?_)
    match a with
    | ⟨0, _⟩ => show (y 0).val < win0_1.xsize (grid0.coords t) (0 : Fin 2); rw [e1]; exact hy
    | ⟨1, _⟩ => show k.val < win0_1.xsize (grid0.coords t) (1 : Fin 2); rw [e11]; exact k.isLt
  · funext j
    refine h2 _ ((win0_2.moved_iff _ _).mpr fun a => ?_)
    match a with
    | ⟨0, _⟩ => show (y 0).val < win0_2.xsize (grid0.coords t) (0 : Fin 2); rw [e2]; exact hy
    | ⟨1, _⟩ => show j.val < win0_2.xsize (grid0.coords t) (1 : Fin 2); rw [e21]; exact j.isLt

/-! ## The proof data -/

/-- An input buffer after the body at point `t`, as the proof data name it: the window's block on the rows inside
    the array, the zero word on the others. -/
def ringBuf (c : Dev nD) (t : Fin cfg0.N) : Vec Ideal S1024x16x3 .f32 :=
  win0_0.fill (grid0.coords t) (fun _ => Scalar.ofBits (F := Ideal) .f32 0#32) (iblk m c 0 t)
def centBuf (c : Dev nD) (t : Fin cfg0.N) : Vec Ideal S1024x3 .f32 :=
  win0_1.fill (grid0.coords t) (fun _ => Scalar.ofBits (F := Ideal) .f32 0#32) (iblk m c 1 t)
def maskBuf (c : Dev nD) (t : Fin cfg0.N) : Vec Ideal S1024x16 .f32 :=
  win0_2.fill (grid0.coords t) (fun _ => Scalar.ofBits (F := Ideal) .f32 0#32) (iblk m c 2 t)

/-- The proof data of the one pipeline on core `c`: the arrays as the region finds them; after the body each input's
    buffer at its block, the results' at the body's two payloads of those; the class's invariant; nothing owed;
    full shares. -/
def dats (_ : Fin 1) (c : Dev nD) : Dat τ (Elt Ideal) Unit ℕ (UR sig nD τ) ℕ cfg0 c where
  A w := V m c (Pipeline.arrRef spec0 w)
  after w t := match w with
    | ⟨0, _⟩ => ringBuf m c t
    | ⟨1, _⟩ => centBuf m c t
    | ⟨2, _⟩ => maskBuf m c t
    | ⟨3, _⟩ => k0_pay1 (F := Ideal) (centBuf m c t)
    | ⟨4, _⟩ => k0_pay2 (F := Ideal) (ringBuf m c t) (centBuf m c t) (maskBuf m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = ringBuf m c t := by dsimp only [dats]
theorem after_1 (c : Dev nD) (t : Fin cfg0.N) : (dats m 0 c).after 1 t = centBuf m c t := by dsimp only [dats]
theorem after_2 (c : Dev nD) (t : Fin cfg0.N) : (dats m 0 c).after 2 t = maskBuf m c t := by dsimp only [dats]
theorem after_3 (c : Dev nD) (t : Fin cfg0.N) : (dats m 0 c).after 3 t = k0_pay1 (F := Ideal) (centBuf m c t) := by dsimp only [dats]
theorem after_4 (c : Dev nD) (t : Fin cfg0.N) :
    (dats m 0 c).after 4 t = k0_pay2 (F := Ideal) (ringBuf m c t) (centBuf m c t) (maskBuf m c t) := by dsimp only [dats]

theorem blockOf_0 (c : Dev nD) (t : Fin cfg0.N) : (dats m 0 c).blockOf 0 t = iblk m c 0 t := by
  unfold Dat.blockOf iblk; rw [A_eq]
theorem blockOf_1 (c : Dev nD) (t : Fin cfg0.N) : (dats m 0 c).blockOf 1 t = iblk m c 1 t := by
  unfold Dat.blockOf iblk; rw [A_eq]
theorem blockOf_2 (c : Dev nD) (t : Fin cfg0.N) : (dats m 0 c).blockOf 2 t = iblk m c 2 t := by
  unfold Dat.blockOf iblk; rw [A_eq]

/-- Every input is fetched at every point: its buffer holds the block on the rows inside the array, `d` elsewhere. -/
theorem before_0 (c : Dev nD) (t : Fin cfg0.N) (d) :
    (dats m 0 c).before 0 t d = win0_0.fill (grid0.coords t) d (iblk m c 0 t) := by
  rw [(dats m 0 c).before_fetched 0 t (fetch0_0 t) d]; unfold Dat.fetched; rw [blockOf_0]
theorem before_1 (c : Dev nD) (t : Fin cfg0.N) (d) :
    (dats m 0 c).before 1 t d = win0_1.fill (grid0.coords t) d (iblk m c 1 t) := by
  rw [(dats m 0 c).before_fetched 1 t (fetch0_1 t) d]; unfold Dat.fetched; rw [blockOf_1]
theorem before_2 (c : Dev nD) (t : Fin cfg0.N) (d) :
    (dats m 0 c).before 2 t d = win0_2.fill (grid0.coords t) d (iblk m c 2 t) := by
  rw [(dats m 0 c).before_fetched 2 t (fetch0_2 t) d]; unfold Dat.fetched; rw [blockOf_2]

theorem cut_after_0 (c : Dev nD) (t : Fin cfg0.N) :
    win0_0.cut (grid0.coords t) ((dats m 0 c).after 0 t) = iblk m c 0 t := by
  rw [after_0]; exact win0_0.cut_fill _ _ _
theorem cut_after_1 (c : Dev nD) (t : Fin cfg0.N) :
    win0_1.cut (grid0.coords t) ((dats m 0 c).after 1 t) = iblk m c 1 t := by
  rw [after_1]; exact win0_1.cut_fill _ _ _
theorem cut_after_2 (c : Dev nD) (t : Fin cfg0.N) :
    win0_2.cut (grid0.coords t) ((dats m 0 c).after 2 t) = iblk m c 2 t := by
  rw [after_2]; exact win0_2.cut_fill _ _ _

/-- Whatever fills the rows outside the array, the body's results on the rows written back are the named ones. -/
theorem dist_named (c : Dev nD) (t : Fin cfg0.N) (d1 : Vec Ideal S1024x3 .f32) :
    k0_pay1 (F := Ideal) (win0_1.fill (grid0.coords t) d1 (iblk m c 1 t))
      = win0_3.fill (grid0.coords t) (k0_pay1 (F := Ideal) (win0_1.fill (grid0.coords t) d1 (iblk m c 1 t)))
          (win0_3.cut (grid0.coords t) (k0_pay1 (F := Ideal) (centBuf m c t))) := by
  exact (win0_3.fill_congr_cut (grid0.coords t) (dist_local t _ _ fun j hj => fill_agree win0_1 _ _ _ _ j hj)).symm

theorem lap_named (c : Dev nD) (t : Fin cfg0.N) (d0 : Vec Ideal S1024x16x3 .f32) (d1 : Vec Ideal S1024x3 .f32) (d2 : Vec Ideal S1024x16 .f32) :
    k0_pay2 (F := Ideal) (win0_0.fill (grid0.coords t) d0 (iblk m c 0 t)) (win0_1.fill (grid0.coords t) d1 (iblk m c 1 t))
        (win0_2.fill (grid0.coords t) d2 (iblk m c 2 t))
      = win0_4.fill (grid0.coords t) (k0_pay2 (F := Ideal) (win0_0.fill (grid0.coords t) d0 (iblk m c 0 t))
            (win0_1.fill (grid0.coords t) d1 (iblk m c 1 t)) (win0_2.fill (grid0.coords t) d2 (iblk m c 2 t)))
          (win0_4.cut (grid0.coords t) (k0_pay2 (F := Ideal) (ringBuf m c t) (centBuf m c t) (maskBuf m c t))) := by
  exact (win0_4.fill_congr_cut (grid0.coords t) (lap_local t _ _ _ _ _ _
    (fun j hj => fill_agree win0_0 _ _ _ _ j hj) (fun j hj => fill_agree win0_1 _ _ _ _ j hj)
    (fun j hj => fill_agree win0_2 _ _ _ _ j hj))).symm

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t)))))

/-- The body at any point: the inputs are handed back as fetched, and the results, on the rows written back, are the
    named payloads. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    cut_after_0, cut_after_1, cut_after_2, after_3, after_4]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2]
  iapply (sound_kernel c Set.univ (grid0.coords t) _ _ _ _ _ _ _ _ _ _
    (win0_0.fill (grid0.coords t) d0 (iblk m c 0 t)) (win0_1.fill (grid0.coords t) d1 (iblk m c 1 t))
    (win0_2.fill (grid0.coords t) d2 (iblk m c 2 t)) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexists d0; iexact H0
  isplitl [H1]; · iexists d1; iexact H1
  isplitl [H2]; · iexists d2; iexact H2
  rw [outDist_eq, outLap_eq, dist_named m c t d1, lap_named m c t d0 d1 d2]
  isplitl [H3]; · iexists _; iexact H3
  iexists _; iexact H4

theorem body_obligation (c : Dev nD) :
    BodyObligationLoose (dats m 0 c) (defs₀ (F := Ideal)) Variants.none () Set.univ := fun t => by
  rw [bigSep_W0, bigSep_W0]
  exact sound_body m c t

/-! ## The run and the frame -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The idealized kernel runs to the end, faulting nowhere, its three arguments unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Run

end
-- ==== Proof.IdealFinal.lean ====
/-
  The two result arrays after the idealized kernel's run, each as one function of the argument arrays.

  Point t writes rows 1024 t onwards of each result: on those rows what it writes is the block of the whole-array
  function (the distance of the central nodes; the umbrella Laplacian), because the rows of the input blocks it read
  are rows 1024 t onwards of the arguments. Row r of a result lies in the block of point r / 1024, and every point
  writes back, so the blocks cover the arrays and each array ends holding its function. The mask reaches the kernel
  as the [2060602, 16] reshape of the [2060602, 16, 1] argument: entry (r, j) is the argument's entry (r, j, 0).
-/
import proofs.«180831_j48687749267811_2_alg».proof.Proof.IdealRun
import Idealize.ShloMosaic.Lib.StableHlo.Run

set_option maxRecDepth 16384

noncomputable section

namespace Cert.KernelIdeal.Final

open Cert.KernelIdeal Cert.KernelIdeal.Gen Cert.KernelIdeal.Body Cert.KernelIdeal.Rows Cert.KernelIdeal.Run
open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat Cfg Window)

variable (m : (ℓ : Loc nD τ sig) → Buf (Elt Ideal) ℓ) (ρ : Dev nD → PrngReg)

/-- The printed index maps over the grid: on the row axis the block index is the point, elsewhere zero; a write-back
    moves 1024 rows, or what is left of the 2060602, and the one column. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_3.xsize (grid0.coords t) (0 : Fin 2) = min 1024 (2060602 - t.val * 1024)
    ∧ win0_3.xsize (grid0.coords t) (1 : Fin 2) = 1 ∧ win0_4.xsize (grid0.coords t) (1 : Fin 2) = 1 :=
  (by decide +kernel : ∀ t : Fin grid0.N, _)

/-! ## The named input buffers on the rows fetched are rows of the arrays -/

theorem ringBuf_at (c : Dev nD) (t : Fin cfg0.N) (p : Fin 1024) (j : Fin 16) (k : Fin 3)
    (hp : p.val < win0_3.xsize (grid0.coords t) (0 : Fin 2)) (r : Fin 2060602) (hr : r.val = t.val * 1024 + p.val) :
    ringBuf m c t (ix3 p j k) = V m c main_arg0 (ix3 r j k) := by
  obtain ⟨e0, e1, e2, e4, e01, e02, e11, e21⟩ := cuts t
  obtain ⟨i00, i01, i02, i10, i11, i20, i21, i30, i31, i40, i41, x30, x31, x41⟩ := idx_facts t
  have hm : win0_0.moved (grid0.coords t) (ix3 p j k) = true := (win0_0.moved_iff _ _).mpr fun a => by
    match a with
    | ⟨0, _⟩ => show p.val < win0_0.xsize (grid0.coords t) (0 : Fin 3); rw [e0]; exact hp
    | ⟨1, _⟩ => show j.val < win0_0.xsize (grid0.coords t) (1 : Fin 3); rw [e01]; exact j.isLt
    | ⟨2, _⟩ => show k.val < win0_0.xsize (grid0.coords t) (2 : Fin 3); rw [e02]; exact k.isLt
  unfold ringBuf Pipeline.Window.fill
  rw [dif_pos hm]
  show V m c main_arg0 (((cfg0.win 0).blk t).view.emb _) = V m c main_arg0 (ix3 r j k)
  refine congrArg _ (funext fun a => Fin.ext ?_)
  match a with
  | ⟨0, _⟩ => show win0_0.index t (0 : Fin 3) * 1024 + 1 * p.val = r.val; omega
  | ⟨1, _⟩ => show win0_0.index t (1 : Fin 3) * 16 + 1 * j.val = j.val; omega
  | ⟨2, _⟩ => show win0_0.index t (2 : Fin 3) * 3 + 1 * k.val = k.val; omega

theorem centBuf_at (c : Dev nD) (t : Fin cfg0.N) (p : Fin 1024) (k : Fin 3)
    (hp : p.val < win0_3.xsize (grid0.coords t) (0 : Fin 2)) (r : Fin 2060602) (hr : r.val = t.val * 1024 + p.val) :
    centBuf m c t (ix2 p k) = V m c main_arg1 (ix2 r k) := by
  obtain ⟨e0, e1, e2, e4, e01, e02, e11, e21⟩ := cuts t
  obtain ⟨i00, i01, i02, i10, i11, i20, i21, i30, i31, i40, i41, x30, x31, x41⟩ := idx_facts t
  have hm : win0_1.moved (grid0.coords t) (ix2 p k) = true := (win0_1.moved_iff _ _).mpr fun a => by
    match a with
    | ⟨0, _⟩ => show p.val < win0_1.xsize (grid0.coords t) (0 : Fin 2); rw [e1]; exact hp
    | ⟨1, _⟩ => show k.val < win0_1.xsize (grid0.coords t) (1 : Fin 2); rw [e11]; exact k.isLt
  unfold centBuf Pipeline.Window.fill
  rw [dif_pos hm]
  show V m c main_arg1 (((cfg0.win 1).blk t).view.emb _) = V m c main_arg1 (ix2 r k)
  refine congrArg _ (funext fun a => Fin.ext ?_)
  match a with
  | ⟨0, _⟩ => show win0_1.index t (0 : Fin 2) * 1024 + 1 * p.val = r.val; omega
  | ⟨1, _⟩ => show win0_1.index t (1 : Fin 2) * 3 + 1 * k.val = k.val; omega

theorem maskBuf_at (c : Dev nD) (t : Fin cfg0.N) (p : Fin 1024) (j : Fin 16)
    (hp : p.val < win0_3.xsize (grid0.coords t) (0 : Fin 2)) (r : Fin 2060602) (hr : r.val = t.val * 1024 + p.val) :
    maskBuf m c t (ix2 p j) = V m c main_v0 (ix2 r j) := by
  obtain ⟨e0, e1, e2, e4, e01, e02, e11, e21⟩ := cuts t
  obtain ⟨i00, i01, i02, i10, i11, i20, i21, i30, i31, i40, i41, x30, x31, x41⟩ := idx_facts t
  have hm : win0_2.moved (grid0.coords t) (ix2 p j) = true := (win0_2.moved_iff _ _).mpr fun a => by
    match a with
    | ⟨0, _⟩ => show p.val < win0_2.xsize (grid0.coords t) (0 : Fin 2); rw [e2]; exact hp
    | ⟨1, _⟩ => show j.val < win0_2.xsize (grid0.coords t) (1 : Fin 2); rw [e21]; exact j.isLt
  unfold maskBuf Pipeline.Window.fill
  rw [dif_pos hm]
  show V m c main_v0 (((cfg0.win 2).blk t).view.emb _) = V m c main_v0 (ix2 r j)
  refine congrArg _ (funext fun a => Fin.ext ?_)
  match a with
  | ⟨0, _⟩ => show win0_2.index t (0 : Fin 2) * 1024 + 1 * p.val = r.val; omega
  | ⟨1, _⟩ => show win0_2.index t (1 : Fin 2) * 16 + 1 * j.val = j.val; omega

/-- The mask as the region finds it: the reshape's entry (r, j) is the argument's entry (r, j, 0). -/
theorem mask_entry (c : Dev nD) (r : Fin 2060602) (j : Fin 16) :
    V m c main_v0 (ix2 r j) = m ((c : Thread nD τ).loc main_arg2) (ix3 (n2 := 1) r j 0) := by
  have e : (V m c main_v0 : S2060602x16.Idx → EReal)
      = shapeCast S2060602x16 (m ((c : Thread nD τ).loc main_arg2)) shapeCasts_S2060602x16x1_S2060602x16 := by
    dsimp only [V, hostOps0]; after_results; rfl
  rw [e]
  exact shapeCast_apply _ _ _ _ (by
    show ((⟨3, ![2060602, 16, 1]⟩ : Shape).rowMajor (ix3 (n0 := 2060602) (n1 := 16) (n2 := 1) r j 0)).val
      = ((⟨2, ![2060602, 16]⟩ : Shape).rowMajor (ix2 r j)).val
    rw [Shape.rowMajor_val_three, Shape.rowMajor_val_two]
    show (r.val * 16 + j.val) * 1 + 0 = r.val * 16 + j.val
    omega)

/-! ## What each point writes back -/

/-- The Laplacian over the whole arrays with the mask as the kernel reads it, a [2060602, 16] array. -/
def GlapK (a0 : S2060602x16x3.Idx → EReal) (a1 : S2060602x3.Idx → EReal) (v0 : S2060602x16.Idx → EReal) : S2060602x1.Idx → EReal :=
  fun i => lapRow (fun j k => a0 (ix3 (i 0) j k)) (fun k => a1 (ix2 (i 0) k)) (fun j => v0 (ix2 (i 0) j))

theorem flushedDist_eq (c : Dev nD) (t : Fin cfg0.N) :
    (dats m 0 c).flushed 3 t = ((cfg0.win 3).blk t).view.read (Elt Ideal) (Gdist (V m c main_arg1)) := by
  show (cfg0.win 3).cut (grid0.coords t) ((dats m 0 c).after 3 t) = _
  rw [after_3]
  obtain ⟨i00, i01, i02, i10, i11, i20, i21, i30, i31, i40, i41, x30, x31, x41⟩ := idx_facts t
  funext y
  show k0_pay1 (F := Ideal) (centBuf m c t) (win0_3.xinj (grid0.coords t) y) = Gdist (V m c main_arg1) (((cfg0.win 3).blk t).view.emb y)
  rw [out_index t y, pay1_at]
  unfold Gdist
  refine congrArg sdf (funext fun k => ?_)
  refine centBuf_at m c t _ k (y 0).isLt _ ?_
  show win0_3.index t (0 : Fin 2) * 1024 + 1 * (y 0).val = t.val * 1024 + (y 0).val
  omega

theorem flushedLap_eq (c : Dev nD) (t : Fin cfg0.N) :
    (dats m 0 c).flushed 4 t
      = ((cfg0.win 4).blk t).view.read (Elt Ideal) (GlapK (V m c main_arg0) (V m c main_arg1) (V m c main_v0)) := by
  show (cfg0.win 4).cut (grid0.coords t) ((dats m 0 c).after 4 t) = _
  rw [after_4]
  obtain ⟨e0, e1, e2, e4, e01, e02, e11, e21⟩ := cuts t
  obtain ⟨i00, i01, i02, i10, i11, i20, i21, i30, i31, i40, i41, x30, x31, x41⟩ := idx_facts t
  funext y
  have hy : (y 0).val < win0_3.xsize (grid0.coords t) (0 : Fin 2) := e4 ▸ (y 0).isLt
  show k0_pay2 (F := Ideal) (ringBuf m c t) (centBuf m c t) (maskBuf m c t) (win0_4.xinj (grid0.coords t) y)
    = GlapK (V m c main_arg0) (V m c main_arg1) (V m c main_v0) (((cfg0.win 4).blk t).view.emb y)
  have hi : win0_4.xinj (grid0.coords t) y = ix2 (n0 := 1024) (n1 := 1) ⟨(y 0).val, Nat.lt_of_lt_of_le (y 0).isLt (win0_4.xsize_le _ 0)⟩ 0 := by
    funext a
    match a with
    | ⟨0, _⟩ => rfl
    | ⟨1, _⟩ =>
      apply Fin.ext
      have h1 : (y 1).val < 1 := Nat.lt_of_lt_of_le (y 1).isLt (win0_4.xsize_le (grid0.coords t) 1)
      show (y 1).val = 0
      omega
  have hr : ((((cfg0.win 4).blk t).view.emb y) 0).val = t.val * 1024 + (y 0).val := by
    show win0_4.index t (0 : Fin 2) * 1024 + 1 * (y 0).val = t.val * 1024 + (y 0).val
    omega
  rw [hi, pay2_at]
  unfold GlapK
  refine congr (congr (congrArg lapRow ?_) ?_) ?_
  · funext j k; exact ringBuf_at m c t _ j k hy _ hr
  · funext k; exact centBuf_at m c t _ k hy _ hr
  · funext j; exact maskBuf_at m c t _ j hy _ hr

/-! ## The blocks cover the arrays -/

theorem mem_blk3 (t : Fin cfg0.N) (i : S2060602x1.Idx) :
    i ∈ ((cfg0.win 3).blk t).view.set ↔ ∀ a : Fin 2, win0_3.index t a * S1024x1.size a ≤ (i a).val
      ∧ (i a).val < win0_3.index t a * S1024x1.size a + win0_3.xsize (grid0.coords t) a := by
  show i ∈ ((View.whole main_v1_0).slice (win0_3.rect t)).set ↔ _
  rw [View.set_slice_whole, Rect.mem_set_unit]
  exact Iff.rfl

theorem mem_blk4 (t : Fin cfg0.N) (i : S2060602x1.Idx) :
    i ∈ ((cfg0.win 4).blk t).view.set ↔ ∀ a : Fin 2, win0_4.index t a * S1024x1.size a ≤ (i a).val
      ∧ (i a).val < win0_4.index t a * S1024x1.size a + win0_4.xsize (grid0.coords t) a := by
  show i ∈ ((View.whole main_v1_1).slice (win0_4.rect t)).set ↔ _
  rw [View.set_slice_whole, Rect.mem_set_unit]
  exact Iff.rfl

theorem cover3 (i : S2060602x1.Idx) : ∃ t : Fin cfg0.N, (cfg0.win 3).flush t = true ∧ i ∈ ((cfg0.win 3).blk t).view.set := by
  have hi0 : (i 0).val < 2060602 := (i 0).isLt
  have hi1 : (i 1).val < 1 := (i 1).isLt
  have hN : (i 0).val / 1024 < cfg0.N := by rw [show cfg0.N = 2013 from N_0]; omega
  refine ⟨⟨(i 0).val / 1024, hN⟩, flush0_3 _, ?_⟩
  obtain ⟨i00, i01, i02, i10, i11, i20, i21, i30, i31, i40, i41, x30, x31, x41⟩ := idx_facts ⟨(i 0).val / 1024, hN⟩
  rw [mem_blk3]
  intro a
  match a with
  | ⟨0, _⟩ =>
    show win0_3.index _ (0 : Fin 2) * 1024 ≤ (i 0).val ∧ (i 0).val < win0_3.index _ (0 : Fin 2) * 1024 + win0_3.xsize _ (0 : Fin 2)
    rw [i30, x30]
    show (i 0).val / 1024 * 1024 ≤ (i 0).val ∧ (i 0).val < (i 0).val / 1024 * 1024 + min 1024 (2060602 - (i 0).val / 1024 * 1024)
    omega
  | ⟨1, _⟩ =>
    show win0_3.index _ (1 : Fin 2) * 1 ≤ (i 1).val ∧ (i 1).val < win0_3.index _ (1 : Fin 2) * 1 + win0_3.xsize _ (1 : Fin 2)
    rw [i31, x31]
    omega

theorem cover4 (i : S2060602x1.Idx) : ∃ t : Fin cfg0.N, (cfg0.win 4).flush t = true ∧ i ∈ ((cfg0.win 4).blk t).view.set := by
  have hi0 : (i 0).val < 2060602 := (i 0).isLt
  have hi1 : (i 1).val < 1 := (i 1).isLt
  have hN : (i 0).val / 1024 < cfg0.N := by rw [show cfg0.N = 2013 from N_0]; omega
  refine ⟨⟨(i 0).val / 1024, hN⟩, flush0_4 _, ?_⟩
  obtain ⟨e0, e1, e2, e4, e01, e02, e11, e21⟩ := cuts ⟨(i 0).val / 1024, hN⟩
  obtain ⟨i00, i01, i02, i10, i11, i20, i21, i30, i31, i40, i41, x30, x31, x41⟩ := idx_facts ⟨(i 0).val / 1024, hN⟩
  rw [mem_blk4]
  intro a
  match a with
  | ⟨0, _⟩ =>
    show win0_4.index _ (0 : Fin 2) * 1024 ≤ (i 0).val ∧ (i 0).val < win0_4.index _ (0 : Fin 2) * 1024 + win0_4.xsize _ (0 : Fin 2)
    rw [i40, e4, x30]
    show (i 0).val / 1024 * 1024 ≤ (i 0).val ∧ (i 0).val < (i 0).val / 1024 * 1024 + min 1024 (2060602 - (i 0).val / 1024 * 1024)
    omega
  | ⟨1, _⟩ =>
    show win0_4.index _ (1 : Fin 2) * 1 ≤ (i 1).val ∧ (i 1).val < win0_4.index _ (1 : Fin 2) * 1 + win0_4.xsize _ (1 : Fin 2)
    rw [i41, x41]
    omega

/-! ## The arrays after the run -/

theorem finalDist (c : Dev nD) : (dats m 0 c).arrAt 3 cfg0.N = Gdist (m ((c : Thread nD τ).loc main_arg1)) := by
  rw [(dats m 0 c).arrAt_eq_of_cover 3 (Gdist (V m c main_arg1)) (fun t _ => flushedDist_eq m c t) cover3, V_main_arg1]

theorem finalLap (c : Dev nD) : (dats m 0 c).arrAt 4 cfg0.N
    = Glap (m ((c : Thread nD τ).loc main_arg0)) (m ((c : Thread nD τ).loc main_arg1)) (m ((c : Thread nD τ).loc main_arg2)) := by
  rw [(dats m 0 c).arrAt_eq_of_cover 4 (GlapK (V m c main_arg0) (V m c main_arg1) (V m c main_v0)) (fun t _ => flushedLap_eq m c t) cover4,
    V_main_arg0, V_main_arg1]
  funext i
  unfold GlapK Glap
  exact congrArg (lapRow _ _) (funext fun j => mask_entry m c (i 0) j)

/-- The run, read: both results at their functions of the arguments, the arguments unchanged. -/
theorem run : θ_run defs (onTc (τ := τ) (main (F := Ideal))) ⟨m, fun _ => 0, ρ⟩ fun r => ∀ c : Dev nD,
      r.2.mem ((c : Thread nD τ).loc main_v1_0) = Gdist (m ((c : Thread nD τ).loc main_arg1))
      ∧ r.2.mem ((c : Thread nD τ).loc main_v1_1)
          = Glap (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).1 3).trans (finalDist m c), ((h c).1 4).trans (finalLap m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Final

end
-- ==== Proof.RefValue.lean ====
/-
  The reference, read one operation at a time on the extended reals, computes the same two whole-array functions of
  its arguments as the kernel's rows: entry (r, 0) of its first result is the distance of central node r, and of its
  second the umbrella Laplacian at node r. Its sums start from the zero word, which is the real 0 and adds nothing.
-/
import proofs.«180831_j48687749267811_2_alg».proof.Proof.Gen.ReferenceIdeal.Read
import proofs.«180831_j48687749267811_2_alg».proof.Proof.IdealRows

set_option maxRecDepth 16384

noncomputable section

namespace Cert.RefBridge

open Idealize.ShloMosaic Idealize.ShloMosaic.ValueIdx
open Cert.ReferenceIdeal Cert.ReferenceIdeal.Read Cert.KernelIdeal.Rows

theorem idx_dist (i : S2060602x1.Idx) (k : Fin 3) : idx_main_v11 (idx_main_v15 i) k = ix2 (i 0) k :=
  funext fun a => Fin.ext (by match a with | ⟨0, _⟩ => rfl | ⟨1, _⟩ => rfl)

/-- The reference's first result is the distance function of its second argument. -/
theorem ref_dist (x1 : (⟨S2060602x3, .f32⟩ : BufTy).Contents (Elt Ideal)) : val_main_v15 (F := Ideal) x1 = Gdist x1 := by
  funext i
  rw [val_main_v15_apply, val_main_v14_apply, val_main_v12_apply, val_main_v11_apply, val_main_v13_apply]
  simp only [val_main_v10_apply, val_main_v9_apply, val_main_v8_apply, val_main_cst_2_apply, val_main_cst_3_apply,
    val_main_cst_4_apply, idx_dist]
  show Ideal.sqrt (Ideal.ofBits .f32 0x00000000#32 + ∑ k : Fin 3, (x1 (ix2 (i 0) k) - half) * (x1 (ix2 (i 0) k) - half)) - quarter = _
  rw [Ideal.ofBits_zero_f32, zero_add]
  rfl

theorem idx_slot (i : S2060602x1.Idx) (j : Fin 16) : idx_main_v17 i j = ix3 (n0 := 2060602) (n1 := 16) (n2 := 1) (i 0) j 0 :=
  funext fun a => Fin.ext (by
    match a with
    | ⟨0, _⟩ => rfl
    | ⟨1, _⟩ => rfl
    | ⟨2, _⟩ => show (i 1).val = 0; have h : (i 1).val < 1 := (i 1).isLt; omega)

theorem idx_slot' (i : S2060602x1.Idx) (j : Fin 16) : idx_main_v18 i j = ix3 (n0 := 2060602) (n1 := 16) (n2 := 1) (i 0) j 0 := idx_slot i j

theorem idx_ring (i : S2060602x1.Idx) (j : Fin 16) (k : Fin 3) :
    idx_main_v3 (idx_main_v7 (ix3 (n0 := 2060602) (n1 := 16) (n2 := 1) (i 0) j 0)) k = ix3 (i 0) j k :=
  funext fun a => Fin.ext (by match a with | ⟨0, _⟩ => rfl | ⟨1, _⟩ => rfl | ⟨2, _⟩ => rfl)

/-- The reference's distance of ring slot j of node r, before the mask. -/
theorem ring_sdf (x0 : (⟨S2060602x16x3, .f32⟩ : BufTy).Contents (Elt Ideal)) (i : S2060602x1.Idx) (j : Fin 16) :
    val_main_v7 (F := Ideal) x0 (ix3 (n0 := 2060602) (n1 := 16) (n2 := 1) (i 0) j 0) = sdf (fun k => x0 (ix3 (i 0) j k)) := by
  rw [val_main_v7_apply, val_main_v6_apply, val_main_v4_apply, val_main_v3_apply, val_main_v5_apply]
  simp only [val_main_v2_apply, val_main_v1_apply, val_main_v0_apply, val_main_cst_apply, val_main_cst_0_apply,
    val_main_cst_1_apply, idx_ring]
  show Ideal.sqrt (Ideal.ofBits .f32 0x00000000#32 + ∑ k : Fin 3, (x0 (ix3 (i 0) j k) - half) * (x0 (ix3 (i 0) j k) - half)) - quarter = _
  rw [Ideal.ofBits_zero_f32, zero_add]
  rfl

/-- The reference's second result is the Laplacian function of its three arguments. -/
theorem ref_lap (x0 : (⟨S2060602x16x3, .f32⟩ : BufTy).Contents (Elt Ideal)) (x1 : (⟨S2060602x3, .f32⟩ : BufTy).Contents (Elt Ideal))
    (x2 : (⟨S2060602x16x1, .f32⟩ : BufTy).Contents (Elt Ideal)) : val_main_v20 (F := Ideal) x0 x1 x2 = Glap x0 x1 x2 := by
  funext i
  rw [val_main_v20_apply, val_main_v19_apply, val_main_v17_apply, val_main_v18_apply, ref_dist]
  unfold Glap lapRow
  refine congrArg₂ (fun a b : EReal => a - b) ?_ ?_
  · refine (congrArg (fun z : EReal => z + _) Ideal.ofBits_zero_f32).trans ((zero_add _).trans ?_)
    refine Finset.sum_congr rfl fun j _ => ?_
    rw [val_main_v16_apply, idx_slot, ring_sdf]
    exact congrArg₂ (fun a b : EReal => a * b) rfl (congrArg x2 (funext fun a => Fin.ext (by
      match a with | ⟨0, _⟩ => rfl | ⟨1, _⟩ => rfl | ⟨2, _⟩ => rfl)))
  · refine congrArg₂ (fun a b : EReal => a * b) ?_ rfl
    refine (congrArg (fun z : EReal => z + _) Ideal.ofBits_zero_f32).trans ((zero_add _).trans ?_)
    exact Finset.sum_congr rfl fun j _ => congrArg x2 ((idx_slot' i j).trans (funext fun a => Fin.ext (by
      match a with | ⟨0, _⟩ => rfl | ⟨1, _⟩ => rfl | ⟨2, _⟩ => rfl)))

end Cert.RefBridge

end
-- ==== Proof.lean ====
/-
  The five claims for the signed-distance and umbrella-Laplacian kernel, assembled.

  Both programs compute, for each of the 2060602 nodes, the distance of the node's centre to the sphere of centre
  (1/2, 1/2, 1/2) and radius 1/4 (the square root of the sum over the three coordinates of (x - 1/2)^2, less 1/4), and
  the masked umbrella Laplacian of that distance over the node's ring of sixteen slots (the sum over the slots of the
  slot's distance times its mask, less the sum of the masks times the centre's distance). The kernel works 1024 rows
  at a time, the last block holding the 314 rows that are left; the reference works on the whole arrays. On the
  extended reals entry (r, 0) of either result is the same expression of row r of the arguments on both sides: the
  sums run over the same index sets and start from a zero that adds nothing. No law that needs finiteness is used,
  so the precondition is never opened.

  The three frames: the word-level kernel and the idealized kernel each run to the end without a fault and leave the
  arguments as they were (every row a point reads lies in its block's fetched part, every row it writes back lies in
  the array); the reference is a straight line of host operations. The kernel's text was idealized with no rewrite,
  so the preservation claim has nothing to state.
-/
import proofs.«180831_j48687749267811_2_alg».proof.Defs
import proofs.«180831_j48687749267811_2_alg».proof.Proof.Gen.Kernel
import proofs.«180831_j48687749267811_2_alg».proof.Proof.Gen.Kernel.Skeleton
import proofs.«180831_j48687749267811_2_alg».proof.Proof.Gen.Kernel.Launch
import proofs.«180831_j48687749267811_2_alg».proof.Proof.Gen.Kernel.Points
import proofs.«180831_j48687749267811_2_alg».proof.Proof.Gen.Kernel.Frame
import proofs.«180831_j48687749267811_2_alg».proof.Proof.Gen.KernelIdeal
import proofs.«180831_j48687749267811_2_alg».proof.Proof.Gen.KernelIdeal.Skeleton
import proofs.«180831_j48687749267811_2_alg».proof.Proof.Gen.KernelIdeal.Launch
import proofs.«180831_j48687749267811_2_alg».proof.Proof.Gen.KernelIdeal.Points
import proofs.«180831_j48687749267811_2_alg».proof.Proof.Gen.KernelIdeal.Frame
import proofs.«180831_j48687749267811_2_alg».proof.Proof.Gen.ReferenceIdeal
import proofs.«180831_j48687749267811_2_alg».proof.Proof.Gen.ReferenceIdeal.Read
import proofs.«180831_j48687749267811_2_alg».proof.Proof.Gen.Pre_finite_inputs
import proofs.«180831_j48687749267811_2_alg».proof.Proof.WordFrame
import proofs.«180831_j48687749267811_2_alg».proof.Proof.IdealFinal
import proofs.«180831_j48687749267811_2_alg».proof.Proof.RefValue
import Idealize.ShloMosaic.Adequacy
import Idealize.ShloMosaic.Init

set_option maxRecDepth 16384

noncomputable section

namespace Cert.Proof

open Idealize.ShloMosaic Idealize.SL.Sem
open Cert.KernelIdeal.Rows

/-- The word-level kernel runs to the end and leaves its arguments unchanged. -/
theorem frame_word : Cert.frame_Kernel (hKernel := Cert.Kernel.Gen.facts) (hPre_finite_inputs := Cert.Pre_finite_inputs.Gen.facts) :=
  fun m ρ _ => Cert.Kernel.FrameRun.frame (F := Bits) m ρ

/-- The idealized kernel runs to the end and leaves its arguments unchanged. -/
theorem frame_ideal : Cert.frame_KernelIdeal (hKernelIdeal := Cert.KernelIdeal.Gen.facts) (hPre_finite_inputs := Cert.Pre_finite_inputs.Gen.facts) :=
  fun m ρ _ => Cert.KernelIdeal.Run.frame m ρ

/-- The reference runs to the end and leaves its arguments unchanged: its run, the two results dropped. -/
theorem frame_ref : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From arguments that agree, both programs end with the distance function of the central nodes as first result and
    the Laplacian function of the three arguments as second. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Final.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v15_eq, Cert.RefBridge.ref_dist, (hagree c).2.1]
  · rw [Cert.ReferenceIdeal.Read.val_main_v20_eq, Cert.RefBridge.ref_lap, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_word, frame_ideal, frame_ref, trivial, algebraic⟩

end Cert.Proof

end
